-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S50000x1 : Shape := ⟨2, ![50000, 1]⟩
abbrev S850000x128 : Shape := ⟨2, ![850000, 128]⟩
abbrev S1x128 : Shape := ⟨2, ![1, 128]⟩

abbrev nBuf : Space → Nat
  | .hbm => 77
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .bf16⟩
  | .hbm, ⟨28, _⟩ => ⟨S50000x128, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x128, .bf16⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x128, .bf16⟩
  | .hbm, ⟨42, _⟩ => ⟨S850000x128, .f32⟩
  | .hbm, ⟨43, _⟩ => ⟨S_, .f32⟩
  | .hbm, ⟨44, _⟩ => ⟨S50000x128, .f32⟩
  | .hbm, ⟨45, _⟩ => ⟨S850000x1, .i32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .bf16⟩
  | .hbm, ⟨52, _⟩ => ⟨S50000x128, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S50000x128, .bf16⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .bf16⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S850000x1, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.MatmulRead.lean ====
/- The two kernel bodies' stored values, the reference's matrix product and its bias-and-clamp stage, each read at
   one index as a plain expression on the extended reals: a product of a [rows, 128] block with a [128, 128] matrix is,
   at (p, q), the sum over k of block (p, k) times matrix (k, q); changes of float format are the identity there. -/
import proofs.«103276_j42649025249306_2_alg».proof.KernelIdeal
import proofs.«103276_j42649025249306_2_alg».proof.ReferenceIdeal
import proofs.«103276_j42649025249306_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.Gcn.Matmul

/-! ## The reference's product -/

section Reference
variable [Cert.ReferenceIdeal.Facts₀]

/-- The reference's dimension numbers: [50000, 128] by [128, 128], contracting the left operand's axis 1 with the right
    operand's axis 0. -/
abbrev DR := Cert.ReferenceIdeal.dot_S50000x128_S128x128_S50000x128_1_0_0_1_n_n

/-- The reference's product at (p, q) is the sum over k of l (p, k) * r (k, q): the contraction index has one axis of
    extent 128, the sum is re-indexed through its one coordinate, and the two operand indices are (p, k) and (k, q)
    coordinate by coordinate. -/
theorem dot_apply (l : FVec Ideal Cert.ReferenceIdeal.S50000x128 .f32) (r : FVec Ideal Cert.ReferenceIdeal.S128x128 .f32)
    (p : Fin 50000) (q : Fin 128) :
    Host.dotGeneral (F := Ideal) Cert.ReferenceIdeal.dot_S50000x128_S128x128_S50000x128_1_0_0_1_n_n none l r (ix2 p q)
      = ∑ k : Fin 128, l (ix2 p k) * r (ix2 k q) := by
  simp only [Host.dotGeneral]
  rw [Ideal.dotGeneral_apply]
  rw [← Equiv.sum_comp (contrEquiv1 DR 128 rfl rfl).symm]
  refine Finset.sum_congr rfl fun k _ => ?_
  have hl : DR.lhsIdx (ix2 p q) ((contrEquiv1 DR 128 rfl rfl).symm k) = ix2 p k := by
    funext a
    match a with
    | ⟨0, _⟩ => exact Fin.ext rfl
    | ⟨1, _⟩ => exact Fin.ext rfl
  have hr : DR.rhsIdx (ix2 p q) ((contrEquiv1 DR 128 rfl rfl).symm k) = ix2 k q := by
    funext a
    match a with
    | ⟨0, _⟩ => exact Fin.ext rfl
    | ⟨1, _⟩ => exact Fin.ext rfl
  rw [hl, hr]

end Reference

/-! ## The kernel bodies' products -/

section Kernel

/-- The kernel bodies' dimension numbers: [5000, 128] by [128, 128], contracting the left operand's axis 1 with the right
    operand's axis 0. -/
abbrev DK := Cert.KernelIdeal.dot_S5000x128_S128x128_S5000x128_1_0_0_1_n_n

/-- A body's product into the zero accumulator at (p, q) is the sum over k of l (p, k) * r (k, q), whatever the two
    operands' formats. -/
theorem matmulK_apply {φ₁ φ₂ : FTy} (l : FVec Ideal Cert.KernelIdeal.S5000x128 φ₁) (r : FVec Ideal Cert.KernelIdeal.S128x128 φ₂)
    (p : Fin 5000) (q : Fin 128) :
    matmul (F := Ideal) DK none l r (constant (F := Ideal) Cert.KernelIdeal.S5000x128 .f32 0x00000000#32) (ix2 p q)
      = ∑ k : Fin 128, l (ix2 p k) * r (ix2 k q) := by
  simp only [matmul]
  rw [Ideal.matmul_constant_zero_apply]
  rw [← Equiv.sum_comp (contrEquiv1 DK 128 rfl rfl).symm]
  refine Finset.sum_congr rfl fun k _ => ?_
  have hl : DK.lhsIdx (ix2 p q) ((contrEquiv1 DK 128 rfl rfl).symm k) = ix2 p k := by
    funext a
    match a with
    | ⟨0, _⟩ => exact Fin.ext rfl
    | ⟨1, _⟩ => exact Fin.ext rfl
  have hr : DK.rhsIdx (ix2 p q) ((contrEquiv1 DK 128 rfl rfl).symm k) = ix2 k q := by
    funext a
    match a with
    | ⟨0, _⟩ => exact Fin.ext rfl
    | ⟨1, _⟩ => exact Fin.ext rfl
  rw [hl, hr]

/-- The first body's stored value at (p, q): the sum over k of x0 (p, k) * w (k, q). The narrowings of the operands and
    of the product are the identity on the extended reals. -/
theorem pay0_apply (x0 : Vec Ideal Cert.KernelIdeal.S5000x128 .f32) (w : Vec Ideal Cert.KernelIdeal.S128x128 .f32)
    (p : Fin 5000) (q : Fin 128) :
    Cert.KernelIdeal.Gen.k0_pay1 (F := Ideal) x0 w (ix2 p q) = ∑ k : Fin 128, x0 (ix2 p k) * w (ix2 k q) := by
  unfold Cert.KernelIdeal.Gen.k0_pay1
  refine (truncf_apply (ψ := .bf16) _ Cert.KernelIdeal.Gen.bitsLt_bf16_f32 (ix2 p q)).trans ?_
  refine (matmulK_apply _ _ p q).trans ?_
  rfl

open Cert.KernelIdeal in
/-- The second body's left operand at (p, k): the block at (p, k) plus the bias row at k (a [1, 128] row read at every
    row p), clamped below by the value of the zero word. The two shape casts are between equal shapes, hence the identity. -/
theorem act_apply (a : Vec Ideal Cert.KernelIdeal.S5000x128 .f32) (b : Vec Ideal Cert.KernelIdeal.S1x128 .f32)
    (h1 : S5000x128.ShapeCasts S5000x128) (h2 : S1x128.ShapeCasts S1x128) (h3 : S1x128.Broadcasts S5000x128)
    (p : Fin 5000) (k : Fin 128) :
    maximumf (addf (shapeCast S5000x128 a h1) (broadcastTo S5000x128 (shapeCast S1x128 b h2) h3))
        (broadcast S5000x128 (Scalar.ofBits (F := Ideal) .f32 0x00000000#32)) (ix2 p k)
      = max (a (ix2 p k) + b (ix2 (0 : Fin 1) k)) (Ideal.ofBits .f32 0x00000000#32) := by
  rw [shapeCast_self, shapeCast_self, maximumf_apply, addf_apply, broadcastTo_1b_ab_apply]
  rfl

/-- The second body's stored value at (p, q): the sum over k of max (a (p, k) + b (0, k)) z * w (k, q), z the value of the
    zero word. -/
theorem pay1_apply (a : Vec Ideal Cert.KernelIdeal.S5000x128 .f32) (b : Vec Ideal Cert.KernelIdeal.S1x128 .f32)
    (w : Vec Ideal Cert.KernelIdeal.S128x128 .f32) (p : Fin 5000) (q : Fin 128) :
    Cert.KernelIdeal.Gen.k1_pay1 (F := Ideal) a b w (ix2 p q)
      = ∑ k : Fin 128, max (a (ix2 p k) + b (ix2 (0 : Fin 1) k)) (Ideal.ofBits .f32 0x00000000#32) * w (ix2 k q) := by
  unfold Cert.KernelIdeal.Gen.k1_pay1
  refine (truncf_apply (ψ := .bf16) _ Cert.KernelIdeal.Gen.bitsLt_bf16_f32 (ix2 p q)).trans ?_
  refine (matmulK_apply _ _ p q).trans ?_
  refine Finset.sum_congr rfl fun k _ => ?_
  refine congrArg (· * w (ix2 k q)) ?_
  exact act_apply a b _ _ _ p k

/-- The bias vector reshaped to one row reads, at column k, the vector at k. -/
theorem biasRow_apply (b1 : FVec Ideal Cert.KernelIdeal.S128 .f32)
    (h : Cert.KernelIdeal.S128.ShapeCasts Cert.KernelIdeal.S1x128) (k : Fin 128) :
    shapeCast Cert.KernelIdeal.S1x128 b1 h (ix2 (0 : Fin 1) k) = b1 (ix1 k) :=
  shapeCast_a_1a_apply b1 h 0 k

end Kernel

/-! ## The reference's bias-and-clamp stage -/

section ReferenceAct
variable [Cert.ReferenceIdeal.Facts₀]

open Cert.ReferenceIdeal in
/-- The reference's stage at (p, k): A (p, k) plus the bias vector at k (the vector placed on the column axis of a one-row
    array, that row read at every row p), clamped below by the value of the zero word (a scalar read at every index). -/
theorem refAct_apply (A : FVec Ideal Cert.ReferenceIdeal.S50000x128 .f32) (b1 : FVec Ideal Cert.ReferenceIdeal.S128 .f32)
    (p : Fin 50000) (k : Fin 128) :
    maximumf (addf A (broadcastInDim S50000x128 ![0, 1] Facts₀.bcast_S1x128_S50000x128_0_1
          (broadcastInDim S1x128 ![1] Facts₀.bcast_S128_S1x128_1 b1)))
        (broadcastInDim S50000x128 ![] Facts₀.bcast_S_S50000x128 (constant (F := Ideal) S_ .f32 0x00000000#32)) (ix2 p k)
      = max (A (ix2 p k) + b1 (ix1 k)) (Ideal.ofBits .f32 0x00000000#32) := by
  rw [maximumf_apply, addf_apply]
  rw [broadcastInDim_apply ![0, 1] _ _ (ix2 p k) (ix2 (0 : Fin 1) k)
        (fun a => match a with | ⟨0, _⟩ => rfl | ⟨1, _⟩ => rfl)]
  rw [broadcastInDim_apply ![1] _ b1 (ix2 (0 : Fin 1) k) (ix1 k) (fun a => match a with | ⟨0, _⟩ => rfl)]
  rw [broadcastInDim_apply ![] _ _ (ix2 p k) ix0 (fun a => a.elim0)]
  rfl

end ReferenceAct

end Cert.Gcn.Matmul

end
-- ==== Proof.KernelValue.lean ====
/-
  What the idealized kernel computes, as one function of its six arguments.

  The program is: the edge lists with one self-loop per node appended; the degrees (a one summed at every edge's
  destination) and their inverse square roots `dinv`; a first pipelined region, the matrix product of the node features
  with the first weight matrix in ten blocks of 5000 rows; the aggregation of that table (scale row `n` by `dinv n`,
  gather at the edges' sources, sum at the edges' destinations, scale by `dinv n` again); a second region, which adds
  the first bias to every row, cuts negative entries to zero and multiplies by the second weight matrix, again in ten
  blocks; the same aggregation; the second bias.

  Each region's output array is read back from its blocks: grid point `t` writes block `t` — rows 5000 t … 5000 t + 4999 —
  of ONE whole-array function of the arrays the region finds (`mm`, `mmBR`), and the ten blocks tile the node axis. The
  buffers a later stretch reads (the two index arrays, `dinv`, the arguments) are carried unchanged through the regions
  and the stretches that do not write them. The result buffer at the last boundary is then `outK` of the launch
  contents.
-/
import proofs.«103276_j42649025249306_2_alg».proof.Proof.Gen.KernelIdeal.Frame
import proofs.«103276_j42649025249306_2_alg».proof.Proof.MatmulRead
import Idealize.ShloMosaic.Lib.StableHlo.Run
import Idealize.ShloMosaic.Lib.Pipeline.Value
import Idealize.ShloMosaic.Lib.ValueIdx

set_option maxRecDepth 16384

noncomputable section

namespace Cert.Gcn.KernelValue

open Cert.KernelIdeal Cert.KernelIdeal.Gen
open Idealize.ShloMosaic Idealize.ShloMosaic.TcCoe Idealize.ShloMosaic.StableHlo Idealize.SL.Sem Idealize.ShloMosaic.ValueIdx
open Idealize.ShloMosaic.Pipeline (Dat)

variable {F : FTy → Type} [FloatOps F]

/-- The destination node of every edge: row 0 of the edge list, then one self-loop per node. -/
def rowOf (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The source node of every edge: row 1 of the edge list, then one self-loop per node. -/
def colOf (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- The degree of every node: a one summed at every edge's destination. -/
def degOf (row : IVec S850000 32) : FVec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 row) (broadcastInDim S850000 ![] bcast_S_S850000 (constant S_ .f32 0x3F800000#32))

/-- The inverse square root of a positive degree, zero otherwise. -/
def dinvOf (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (constant S_ .f32 0x00000000#32))

/-- A source index counted from the end when negative. -/
def colN (col : IVec S850000 32) : IVec S850000 32 :=
  select (cmpi .slt col (broadcastInDim S850000 ![] bcast_S_S850000 (constantI S_ 32 0#32)))
    (addi col (broadcastInDim S850000 ![] bcast_S_S850000 (constantI S_ 32 50000#32))) col

/-- A per-node factor spread over the feature axis. -/
def dinvB (dinv : FVec F S50000 .f32) : FVec F S50000x128 .f32 :=
  broadcastInDim S50000x128 ![0, 1] bcast_S50000x1_S50000x128_0_1 (broadcastInDim S50000x1 ![0] bcast_S50000_S50000x1_0 dinv)

/-- The kernel's aggregation of a feature table `X`: scale row `n` by `dinv n`, gather the scaled rows at the edges'
    sources, sum them at the edges' destinations, scale row `n` of the sums by `dinv n` again. -/
def aggK (row col : IVec S850000 32) (dinv : FVec F S50000 .f32) (X : FVec F S50000x128 .bf16) : FVec F S50000x128 .f32 :=
  mulf (Host.scatterAdd scatter_S50000x128_S850000x1_S850000x128_1_0_0_1
          (broadcastInDim S50000x128 ![] bcast_S_S50000x128 (constant S_ .f32 0x00000000#32))
          (broadcastInDim S850000x1 ![0] bcast_S850000_S850000x1_0 row)
          (extf .f32 (Host.gather gather_S50000x128_S850000x1_S850000x128_1_0_n_n_0_1_1128
            (truncf .bf16 (mulf (extf .f32 X bitsLt_bf16_f32) (dinvB dinv)) bitsLt_bf16_f32)
            (broadcastInDim S850000x1 ![0] bcast_S850000_S850000x1_0 (colN col))) bitsLt_bf16_f32))
    (dinvB dinv)

/-- A bias row spread over the nodes. -/
def biasB (b : FVec F S128 .f32) : FVec F S50000x128 .f32 :=
  broadcastInDim S50000x128 ![0, 1] bcast_S1x128_S50000x128_0_1 (broadcastInDim S1x128 ![1] bcast_S128_S1x128_1 b)

/-- The matrix product of a node-feature table with a weight matrix, entry by entry. -/
def mm (x : FVec Ideal S50000x128 .f32) (w : FVec Ideal S128x128 .f32) : FVec Ideal S50000x128 .bf16 :=
  fun i => ∑ k : Fin 128, x (ix2 ⟨(i 0).val, idx2_lt0 i⟩ k) * w (ix2 k ⟨(i 1).val, idx2_lt1 i⟩)

/-- The same product after a bias row is added to every node's features and negative entries are cut to zero. -/
def mmBR (a : FVec Ideal S50000x128 .f32) (b : FVec Ideal S1x128 .f32) (w : FVec Ideal S128x128 .f32) : FVec Ideal S50000x128 .bf16 :=
  fun i => ∑ k : Fin 128, max (a (ix2 ⟨(i 0).val, idx2_lt0 i⟩ k) + b (ix2 0 k)) (Ideal.ofBits .f32 0x00000000#32) * w (ix2 k ⟨(i 1).val, idx2_lt1 i⟩)

/-- The kernel's result as one function of its six arguments: two aggregation layers, the first followed by bias and
    cut-off inside the second product, the second by its bias. -/
def outK (x : FVec Ideal S50000x128 .f32) (ei : IVec S2x800000 32) (w1 : FVec Ideal S128x128 .f32) (b1 : FVec Ideal S128 .f32)
    (w2 : FVec Ideal S128x128 .f32) (b2 : FVec Ideal S128 .f32) : FVec Ideal S50000x128 .f32 :=
  addf (aggK (rowOf ei) (colOf ei) (dinvOf (degOf (rowOf ei)))
      (mmBR (aggK (rowOf ei) (colOf ei) (dinvOf (degOf (rowOf ei))) (mm x w1)) (shapeCast S1x128 b1 shapeCasts_S128_S1x128) w2))
    (biasB b2)

section Regions
variable (V : (c : Dev nD) → (b : Ref sig .tc) → Buf (Elt Ideal) ((c : Thread nD τ).loc b))

theorem hz : (![0, 0] : Fin 2 → Nat) = fun _ => 0 := funext fun a => by fin_cases a <;> rfl

/-- The printed index maps of the first region, decided over its ten points: the features' block moves with the output's
    along the node axis, the weights' block stays. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

theorem idx_onto0 : ∀ q0 : Fin 10, ∃ t : Fin cfg0.N, win0_2.index t = ![q0.val, 0] :=
  (by decide +kernel : ∀ q0 : Fin 10, ∃ t : Fin grid0.N, win0_2.index t = ![q0.val, 0])

/-- What grid point `t` of the first region writes back is block `t` of the product of the two arrays the region finds:
    entry `(p, q)` of the block is the sum over `k` of row `5000 t + p` of the features times column `q` of the weights. -/
theorem flushed0_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext j
  obtain ⟨p, q, rfl⟩ : ∃ (p : Fin 5000) (q : Fin 128), j = ix2 p q := ⟨_, _, eq_ix2 j⟩
  show k0_pay1 (iblk0 V c 0 t) (iblk0 V c 1 t) (ix2 p q)
    = mm (V c main_arg0) (V c main_arg2) (((cfg0.win 2).blk t).view.emb (ix2 p q))
  refine (Cert.Gcn.Matmul.pay0_apply _ _ p q).trans ?_
  unfold mm
  refine Finset.sum_congr rfl fun k _ => ?_
  have h0 : iblk0 V c 0 t (ix2 p k)
      = V c main_arg0 (ix2 ⟨(((cfg0.win 2).blk t).view.emb (ix2 p q) 0).val, idx2_lt0 _⟩ k) := by
    show V c main_arg0 (((cfg0.win 0).blk t).view.emb (ix2 p k)) = _
    refine congrArg _ ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : iblk0 V c 1 t (ix2 k q)
      = V c main_arg2 (ix2 k ⟨(((cfg0.win 2).blk t).view.emb (ix2 p q) 1).val, idx2_lt1 _⟩) := by
    show V c main_arg2 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- The ten blocks of five thousand rows tile the node axis: row `r` is in the block of point `r / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first region its output array is the product of the arrays it found. -/
theorem final0 (c : Dev nD) : (dat0 V c).arrAt 2 cfg0.N = mm (V c main_arg0) (V c main_arg2) :=
  (dat0 V c).arrAt_eq_of_cover 2 (mm (V c main_arg0) (V c main_arg2)) (fun t _ => flushed0_eq V c t) cover0

/-- The same for the second region; its bias row stays too. -/
theorem idx_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

theorem idx_onto1 : ∀ q0 : Fin 10, ∃ t : Fin cfg1.N, win1_3.index t = ![q0.val, 0] :=
  (by decide +kernel : ∀ q0 : Fin 10, ∃ t : Fin grid1.N, win1_3.index t = ![q0.val, 0])

/-- What grid point `t` of the second region writes back is block `t` of the biased, cut-off product of the arrays
    the region finds. -/
theorem flushed1_eq (c : Dev nD) (t : Fin cfg1.N) :
    (dat1 V c).flushed 3 t
      = ((cfg1.win 3).blk t).view.read (Elt Ideal) (mmBR (V c main_v34) (V c main_v35) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts1 t
  funext j
  obtain ⟨p, q, rfl⟩ : ∃ (p : Fin 5000) (q : Fin 128), j = ix2 p q := ⟨_, _, eq_ix2 j⟩
  show k1_pay1 (iblk1 V c 0 t) (iblk1 V c 2 t) (iblk1 V c 1 t) (ix2 p q)
    = mmBR (V c main_v34) (V c main_v35) (V c main_arg4) (((cfg1.win 3).blk t).view.emb (ix2 p q))
  refine (Cert.Gcn.Matmul.pay1_apply _ _ _ p q).trans ?_
  unfold mmBR
  refine Finset.sum_congr rfl fun k _ => ?_
  have h0 : iblk1 V c 0 t (ix2 p k)
      = V c main_v34 (ix2 ⟨(((cfg1.win 3).blk t).view.emb (ix2 p q) 0).val, idx2_lt0 _⟩ k) := by
    show V c main_v34 (((cfg1.win 0).blk t).view.emb (ix2 p k)) = _
    refine congrArg _ ?_
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have hb : iblk1 V c 2 t (ix2 0 k) = V c main_v35 (ix2 0 k) := by
    show V c main_v35 (((cfg1.win 2).blk t).view.emb (ix2 0 k)) = _
    refine congrArg _ ?_
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h1 : iblk1 V c 1 t (ix2 k q)
      = V c main_arg4 (ix2 k ⟨(((cfg1.win 3).blk t).view.emb (ix2 p q) 1).val, idx2_lt1 _⟩) := by
    show V c main_arg4 (((cfg1.win 1).blk t).view.emb (ix2 k q)) = _
    refine congrArg _ ?_
    funext a; apply Fin.ext
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  rw [h0, hb, h1]

theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v36).slice (win1_3.rect t)).set ↔ _
  rw [View.set_slice_whole, Rect.mem_set_unit]
  exact Iff.rfl

/-- The ten blocks of five thousand rows tile the node axis. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the second region its output array is the biased, cut-off product of the arrays it found. -/
theorem final1 (c : Dev nD) : (dat1 V c).arrAt 3 cfg1.N = mmBR (V c main_v34) (V c main_v35) (V c main_arg4) :=
  (dat1 V c).arrAt_eq_of_cover 3 (mmBR (V c main_v34) (V c main_v35) (V c main_arg4)) (fun t _ => flushed1_eq V c t) cover1

end Regions

/-! ## The buffers at the first region's entry: the index arrays, `dinv` and the arguments, from the launch contents -/

section FirstBoundary
variable {F : FTy → Type} [FloatOps F]
variable (m : (ℓ : Loc nD τ sig) → Buf (Elt F) ℓ) (ρ : Dev nD → PrngReg)

theorem W2_main_arg0 (c : Dev nD) : W2 m ρ c (Proc.devRef .tc main_arg0) = m ((c : Thread nD τ).loc main_arg0) := by
  dsimp only [W2, W1, hostOps0_1, hostOps0]
  first | (after_results; rfl) | after_results
theorem W2_main_arg2 (c : Dev nD) : W2 m ρ c (Proc.devRef .tc main_arg2) = m ((c : Thread nD τ).loc main_arg2) := by
  dsimp only [W2, W1, hostOps0_1, hostOps0]
  first | (after_results; rfl) | after_results
theorem W2_main_v5 (c : Dev nD) : W2 m ρ c (Proc.devRef .tc main_v5) = rowOf (m ((c : Thread nD τ).loc main_arg1)) := by
  dsimp only [W2, W1, hostOps0_1, hostOps0]
  first | (after_results; rfl) | after_results
theorem W2_main_v6 (c : Dev nD) : W2 m ρ c (Proc.devRef .tc main_v6) = colOf (m ((c : Thread nD τ).loc main_arg1)) := by
  dsimp only [W2, W1, hostOps0_1, hostOps0]
  first | (after_results; rfl) | after_results
theorem W2_main_v14 (c : Dev nD) : W2 m ρ c (Proc.devRef .tc main_v14) = dinvOf (degOf (rowOf (m ((c : Thread nD τ).loc main_arg1)))) := by
  dsimp only [W2, W1, hostOps0_1, hostOps0]
  first | (after_results; rfl) | after_results
theorem W2_main_arg3 (c : Dev nD) : W2 m ρ c (Proc.devRef .tc main_arg3) = m ((c : Thread nD τ).loc main_arg3) := by
  dsimp only [W2, W1, hostOps0_1, hostOps0]
  first | (after_results; rfl) | after_results
theorem W2_main_arg4 (c : Dev nD) : W2 m ρ c (Proc.devRef .tc main_arg4) = m ((c : Thread nD τ).loc main_arg4) := by
  dsimp only [W2, W1, hostOps0_1, hostOps0]
  first | (after_results; rfl) | after_results
theorem W2_main_arg5 (c : Dev nD) : W2 m ρ c (Proc.devRef .tc main_arg5) = m ((c : Thread nD τ).loc main_arg5) := by
  dsimp only [W2, W1, hostOps0_1, hostOps0]
  first | (after_results; rfl) | after_results

end FirstBoundary

/-! ## Through the two regions and the stretches between and after them -/

section Run
variable (m : (ℓ : Loc nD τ sig) → Buf (Elt Ideal) ℓ) (ρ : Dev nD → PrngReg)

theorem W3_main_v15 (c : Dev nD) : W3 m ρ c (Proc.devRef .tc main_v15) = mm (m ((c : Thread nD τ).loc main_arg0)) (m ((c : Thread nD τ).loc main_arg2)) := by
  refine (W3_arr m ρ c 2).trans ?_
  rw [final0 (V2 m ρ) c]
  show mm (W2 m ρ c (Proc.devRef .tc main_arg0)) (W2 m ρ c (Proc.devRef .tc main_arg2)) = _
  rw [W2_main_arg0, W2_main_arg2]
theorem W3_main_v5 (c : Dev nD) : W3 m ρ c (Proc.devRef .tc main_v5) = rowOf (m ((c : Thread nD τ).loc main_arg1)) :=
  (W3_of_ne m ρ c main_v5 (by decide)).trans (W2_main_v5 m ρ c)
theorem W3_main_v6 (c : Dev nD) : W3 m ρ c (Proc.devRef .tc main_v6) = colOf (m ((c : Thread nD τ).loc main_arg1)) :=
  (W3_of_ne m ρ c main_v6 (by decide)).trans (W2_main_v6 m ρ c)
theorem W3_main_v14 (c : Dev nD) : W3 m ρ c (Proc.devRef .tc main_v14) = dinvOf (F := Ideal) (degOf (F := Ideal) (rowOf (m ((c : Thread nD τ).loc main_arg1)))) :=
  (W3_of_ne m ρ c main_v14 (by decide)).trans (W2_main_v14 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W3_main_arg5 (c : Dev nD) : W3 m ρ c (Proc.devRef .tc main_arg5) = m ((c : Thread nD τ).loc main_arg5) :=
  (W3_of_ne m ρ c main_arg5 (by decide)).trans (W2_main_arg5 m ρ c)

theorem W4_main_v34 (c : Dev nD) : W4 m ρ c (Proc.devRef .tc main_v34) = aggK (rowOf (m ((c : Thread nD τ).loc main_arg1))) (colOf (m ((c : Thread nD τ).loc main_arg1))) (dinvOf (F := Ideal) (degOf (F := Ideal) (rowOf (m ((c : Thread nD τ).loc main_arg1))))) (mm (m ((c : Thread nD τ).loc main_arg0)) (m ((c : Thread nD τ).loc main_arg2))) := by
  dsimp only [W4, hostOps1]
  after_results_simp
  rw [W3_main_v15, W3_main_v14, W3_main_v5, W3_main_v6]
  rfl
theorem W4_main_v35 (c : Dev nD) : W4 m ρ c (Proc.devRef .tc main_v35) = shapeCast S1x128 (m ((c : Thread nD τ).loc main_arg3)) shapeCasts_S128_S1x128 := by
  dsimp only [W4, hostOps1]
  after_results_simp
  rw [W3_main_arg3]
  rfl
theorem W4_main_v5 (c : Dev nD) : W4 m ρ c (Proc.devRef .tc main_v5) = rowOf (m ((c : Thread nD τ).loc main_arg1)) := by
  dsimp only [W4, hostOps1]
  after_results_simp
  exact W3_main_v5 m ρ c
theorem W4_main_v6 (c : Dev nD) : W4 m ρ c (Proc.devRef .tc main_v6) = colOf (m ((c : Thread nD τ).loc main_arg1)) := by
  dsimp only [W4, hostOps1]
  after_results_simp
  exact W3_main_v6 m ρ c
theorem W4_main_v14 (c : Dev nD) : W4 m ρ c (Proc.devRef .tc main_v14) = dinvOf (F := Ideal) (degOf (F := Ideal) (rowOf (m ((c : Thread nD τ).loc main_arg1)))) := by
  dsimp only [W4, hostOps1]
  after_results_simp
  exact W3_main_v14 m ρ c
theorem W4_main_arg4 (c : Dev nD) : W4 m ρ c (Proc.devRef .tc main_arg4) = m ((c : Thread nD τ).loc main_arg4) := by
  dsimp only [W4, hostOps1]
  after_results_simp
  exact W3_main_arg4 m ρ c
theorem W4_main_arg5 (c : Dev nD) : W4 m ρ c (Proc.devRef .tc main_arg5) = m ((c : Thread nD τ).loc main_arg5) := by
  dsimp only [W4, hostOps1]
  after_results_simp
  exact W3_main_arg5 m ρ c

theorem W5_main_v36 (c : Dev nD) : W5 m ρ c (Proc.devRef .tc main_v36) = mmBR (aggK (rowOf (m ((c : Thread nD τ).loc main_arg1))) (colOf (m ((c : Thread nD τ).loc main_arg1))) (dinvOf (F := Ideal) (degOf (F := Ideal) (rowOf (m ((c : Thread nD τ).loc main_arg1))))) (mm (m ((c : Thread nD τ).loc main_arg0)) (m ((c : Thread nD τ).loc main_arg2)))) (shapeCast S1x128 (m ((c : Thread nD τ).loc main_arg3)) shapeCasts_S128_S1x128) (m ((c : Thread nD τ).loc main_arg4)) := by
  refine (W5_arr m ρ c 3).trans ?_
  rw [final1 (V4 m ρ) c]
  show mmBR (W4 m ρ c (Proc.devRef .tc main_v34)) (W4 m ρ c (Proc.devRef .tc main_v35)) (W4 m ρ c (Proc.devRef .tc main_arg4)) = _
  rw [W4_main_v34, W4_main_v35, W4_main_arg4]
theorem W5_main_v5 (c : Dev nD) : W5 m ρ c (Proc.devRef .tc main_v5) = rowOf (m ((c : Thread nD τ).loc main_arg1)) :=
  (W5_of_ne m ρ c main_v5 (by decide)).trans (W4_main_v5 m ρ c)
theorem W5_main_v6 (c : Dev nD) : W5 m ρ c (Proc.devRef .tc main_v6) = colOf (m ((c : Thread nD τ).loc main_arg1)) :=
  (W5_of_ne m ρ c main_v6 (by decide)).trans (W4_main_v6 m ρ c)
theorem W5_main_v14 (c : Dev nD) : W5 m ρ c (Proc.devRef .tc main_v14) = dinvOf (F := Ideal) (degOf (F := Ideal) (rowOf (m ((c : Thread nD τ).loc main_arg1)))) :=
  (W5_of_ne m ρ c main_v14 (by decide)).trans (W4_main_v14 m ρ c)
theorem W5_main_arg5 (c : Dev nD) : W5 m ρ c (Proc.devRef .tc main_arg5) = m ((c : Thread nD τ).loc main_arg5) :=
  (W5_of_ne m ρ c main_arg5 (by decide)).trans (W4_main_arg5 m ρ c)

/-- THE KERNEL'S RESULT: the last boundary's contents at the result buffer are `outK` of the launch contents of the arguments. -/
theorem W6_main_v58 (c : Dev nD) : W6 m ρ c (Proc.devRef .tc main_v58)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W6, hostOps2]
  after_results_simp
  rw [W5_main_v36, W5_main_v14, W5_main_v5, W5_main_v6, W5_main_arg5]
  rfl

end Run

end Cert.Gcn.KernelValue
end
-- ==== Proof.RefValue.lean ====
/-
  What the idealized reference computes, as one function of its six arguments.

  The program is a straight line of host operations: the edge lists with one self-loop per node appended; the degrees
  and their inverse square roots `dinv`; per edge the factor `dinv[destination] · dinv[source]`; then two layers, each the
  matrix product of the node features with a weight matrix, gathered at the edges' sources, scaled per edge, summed at the
  edges' destinations, plus a bias — with negative entries cut to zero between the layers.

  Its run ends with the result buffer at the fold of the operations' results over the launch contents. The fold is read
  in two pieces: the first 21 operations (the index arrays and `dinv`, which later operations read several times) and the
  remaining 62, whose results are rewritten in one pass over what the first piece left.
-/
import proofs.«103276_j42649025249306_2_alg».proof.Proof.RefRun

set_option maxRecDepth 16384

noncomputable section

namespace Cert.Gcn.RefValue

open Cert.ReferenceIdeal Cert.ReferenceIdeal.Gen Cert.ReferenceIdeal.RunP
open Idealize.ShloMosaic Idealize.ShloMosaic.TcCoe Idealize.ShloMosaic.StableHlo Idealize.SL.Sem

variable {F : FTy → Type} [FloatOps F]

/-- The destination node of every edge: row 0 of the edge list, then one self-loop per node. -/
def rowOf (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The source node of every edge: row 1 of the edge list, then one self-loop per node. -/
def colOf (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- The degree of every node: a one summed at every edge's destination. -/
def degOf (row : IVec S850000 32) : FVec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 row) (broadcastInDim S850000 ![] bcast_S_S850000 (constant S_ .f32 0x3F800000#32))

/-- The inverse square root of a positive degree, zero otherwise. -/
def dinvOf (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (constant S_ .f32 0x00000000#32))

/-- A node index counted from the end when negative. -/
def idxN (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The reference's aggregation of a feature table `Y`: gather its rows at the edges' sources, scale each by the edge's
    factor `dinv[destination] · dinv[source]`, sum at the edges' destinations. -/
def aggR (row col : IVec S850000 32) (dinv : FVec F S50000 .f32) (Y : FVec F S50000x128 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 row)
    (mulf (broadcastInDim S850000x128 ![0, 1] bcast_S850000x1_S850000x128_0_1 (broadcastInDim S850000x1 ![0] bcast_S850000_S850000x1_0
        (mulf (Host.gather gather_S50000_S850000x1_S850000_n_0_n_n_0_1_1 dinv (broadcastInDim S850000x1 ![0] bcast_S850000_S850000x1_0 (idxN row)))
          (Host.gather gather_S50000_S850000x1_S850000_n_0_n_n_0_1_1 dinv (broadcastInDim S850000x1 ![0] bcast_S850000_S850000x1_0 (idxN col))))))
      (Host.gather gather_S50000x128_S850000x1_S850000x128_1_0_n_n_0_1_1128 Y (broadcastInDim S850000x1 ![0] bcast_S850000_S850000x1_0 (idxN col))))

/-- A bias row spread over the nodes. -/
def biasB (b : FVec F S128 .f32) : FVec F S50000x128 .f32 :=
  broadcastInDim S50000x128 ![0, 1] bcast_S1x128_S50000x128_0_1 (broadcastInDim S1x128 ![1] bcast_S128_S1x128_1 b)

/-- Negative entries cut to zero. -/
def reluR (A : FVec F S50000x128 .f32) : FVec F S50000x128 .f32 :=
  maximumf A (broadcastInDim S50000x128 ![] bcast_S_S50000x128 (constant S_ .f32 0x00000000#32))

/-- The product of a node-feature table with a weight matrix. -/
def dotR (l : FVec F S50000x128 .f32) (r : FVec F S128x128 .f32) : FVec F S50000x128 .f32 :=
  Host.dotGeneral dot_S50000x128_S128x128_S50000x128_1_0_0_1_n_n none l r

/-- The reference's result as one function of its six arguments. -/
def outR (x : FVec F S50000x128 .f32) (ei : IVec S2x800000 32) (w1 : FVec F S128x128 .f32) (b1 : FVec F S128 .f32)
    (w2 : FVec F S128x128 .f32) (b2 : FVec F S128 .f32) : FVec F S50000x128 .f32 :=
  addf (aggR (rowOf ei) (colOf ei) (dinvOf (degOf (rowOf ei)))
      (dotR (reluR (addf (aggR (rowOf ei) (colOf ei) (dinvOf (degOf (rowOf ei))) (dotR x w1)) (biasB b1))) w2))
    (biasB b2)

/-- Running two stretches of operations one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (m : (ℓ : Loc nD τ sig) → Buf (Elt F) ℓ)

/-- The buffers after the first 21 operations. -/
def VA (c : Dev nD) : Valuation τ sig (Elt F) := after ((ops (F := F)).take 21) (launchContents m c)

theorem after_ops (c : Dev nD) : after ops (launchContents m c) = after ((ops (F := F)).drop 21) (VA m c) := by
  unfold VA
  rw [← after_append, List.take_append_drop]

/-! ## The first 21 operations: the index arrays, `dinv`, and the arguments untouched -/

theorem VA_main_v5 (c : Dev nD) : VA m c (Proc.devRef .tc main_v5) = rowOf (m ((c.tc : Thread nD τ).loc main_arg1)) := by
  unfold VA
  simp only [ops, List.take_succ_cons, List.take_zero]
  first | (after_results; rfl) | after_results
theorem VA_main_v6 (c : Dev nD) : VA m c (Proc.devRef .tc main_v6) = colOf (m ((c.tc : Thread nD τ).loc main_arg1)) := by
  unfold VA
  simp only [ops, List.take_succ_cons, List.take_zero]
  first | (after_results; rfl) | after_results
theorem VA_main_v14 (c : Dev nD) : VA m c (Proc.devRef .tc main_v14) = dinvOf (degOf (rowOf (m ((c.tc : Thread nD τ).loc main_arg1)))) := by
  unfold VA
  simp only [ops, List.take_succ_cons, List.take_zero]
  first | (after_results; rfl) | after_results
theorem VA_main_arg0 (c : Dev nD) : VA m c (Proc.devRef .tc main_arg0) = m ((c.tc : Thread nD τ).loc main_arg0) := by
  unfold VA
  simp only [ops, List.take_succ_cons, List.take_zero]
  first | (after_results; rfl) | after_results
theorem VA_main_arg2 (c : Dev nD) : VA m c (Proc.devRef .tc main_arg2) = m ((c.tc : Thread nD τ).loc main_arg2) := by
  unfold VA
  simp only [ops, List.take_succ_cons, List.take_zero]
  first | (after_results; rfl) | after_results
theorem VA_main_arg3 (c : Dev nD) : VA m c (Proc.devRef .tc main_arg3) = m ((c.tc : Thread nD τ).loc main_arg3) := by
  unfold VA
  simp only [ops, List.take_succ_cons, List.take_zero]
  first | (after_results; rfl) | after_results
theorem VA_main_arg4 (c : Dev nD) : VA m c (Proc.devRef .tc main_arg4) = m ((c.tc : Thread nD τ).loc main_arg4) := by
  unfold VA
  simp only [ops, List.take_succ_cons, List.take_zero]
  first | (after_results; rfl) | after_results
theorem VA_main_arg5 (c : Dev nD) : VA m c (Proc.devRef .tc main_arg5) = m ((c.tc : Thread nD τ).loc main_arg5) := by
  unfold VA
  simp only [ops, List.take_succ_cons, List.take_zero]
  first | (after_results; rfl) | after_results

/-- THE REFERENCE'S RESULT: the fold of its 83 operations over the launch contents, at the result buffer, is `outR` of the
    launch contents of the arguments. -/
theorem ref_result (c : Dev nD) : after ops (launchContents m c) (Proc.devRef .tc main_v64)
    = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  simp only [ops, List.drop_succ_cons, List.drop_zero]
  after_results_simp
  rw [VA_main_v5, VA_main_v6, VA_main_v14, VA_main_arg0, VA_main_arg2, VA_main_arg3, VA_main_arg4, VA_main_arg5]
  rfl

end Cert.Gcn.RefValue
end
-- ==== Proof.Aggregate.lean ====
import proofs.«103276_j42649025249306_2_alg».proof.KernelIdeal
import proofs.«103276_j42649025249306_2_alg».proof.ReferenceIdeal
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx
open scoped BigOperators

/-!
# The aggregation law of a graph convolution, on the extended reals

`N = 50000` nodes, `E = 850000` edges, `H = 128` features. One layer aggregates, for every node `n`, the rows of its
in-edges' source nodes, each scaled by `dinv[source] · dinv[n]`. One program scales the rows by `dinv` at the
source, gathers, scatter-adds and scales the sums by `dinv` at the destination; the other scales each gathered row by
the product of the two factors and scatter-adds. They agree because `dinv` is a non-negative real, so multiplication
by it distributes over the (extended-real) sum.
-/

namespace Cert.Gcn.Aggregate

/-! ## Algebra on the extended reals -/

/-- On the extended reals, "the reciprocal square root where the argument is positive, else zero" is a
    non-negative real: a positive real has a positive real root, and `⊤` has reciprocal root `0`. -/
theorem sel_rsqrt_nonneg_real (x : EReal) :
    ∃ r : ℝ, 0 ≤ r ∧ Scalar.select (Ideal.cmp .ogt x 0) (Ideal.rsqrt x) 0 = ((r : ℝ) : EReal) := by
  by_cases h : (0 : EReal) < x
  · have hc : Ideal.cmp .ogt x 0 = 1#1 := by simp [Ideal.cmp, h]
    rw [hc, select_one]
    induction x using EReal.rec with
    | bot => exact absurd h (by simp)
    | top => exact ⟨0, le_rfl, by simp⟩
    | coe r =>
      have hr : 0 < r := by exact_mod_cast h
      refine ⟨(Real.sqrt r)⁻¹, by positivity, ?_⟩
      rw [Ideal.rsqrt_coe, if_neg (not_lt.mpr hr.le), if_neg hr.ne']
  · have hc : Ideal.cmp .ogt x 0 = 0#1 := by simp [Ideal.cmp, h]
    rw [hc, select_zero]; exact ⟨0, le_rfl, by simp⟩

/-- Multiplication by a non-negative real distributes over a finite sum of extended reals (it does not for a
    general factor: `⊤ + ⊥ = ⊥`). -/
theorem sum_mul_nonneg_real {ι : Type*} (s : Finset ι) (f : ι → EReal) (D : EReal) (hD0 : 0 ≤ D) (hDt : D ≠ ⊤) :
    (∑ j ∈ s, f j) * D = ∑ j ∈ s, f j * D := by
  classical
  induction s using Finset.induction_on with
  | empty => simp
  | insert a s ha ih =>
    rw [Finset.sum_insert ha, Finset.sum_insert ha, EReal.right_distrib_of_nonneg_of_ne_top hD0 hDt, ih]

/-- The three factors of one edge's term, regrouped. -/
theorem edge_term (x dc D : EReal) : (x * dc) * D = (D * dc) * x := by
  rw [mul_comm x dc, mul_comm (dc * x) D, mul_assoc]

/-! ## Index normalisation -/

/-- An index word whose signed reading is a node number `n < 50000` is non-negative, so the wrap
    "add 50000 where negative" leaves it, and the clamp into `[0, 49999]` leaves `n`. -/
theorem norm_idx (v : BitVec 32) (n : ℕ) (hn : n < 50000) (hv : v.toInt = (n : ℤ)) :
    min (Scalar.select (IntOp.cmpi .slt v 0#32) (IntOp.addi v 50000#32) v).toInt.toNat 49999 = n := by
  have hneg : ¬ ((n : ℤ) < 0) := by omega
  have hc : IntOp.cmpi .slt v 0#32 = 0#1 := by
    simp [IntOp.cmpi, BitVec.slt, hv, hneg]
  rw [hc, select_zero, hv, Int.toNat_natCast]
  omega

/-! ## Broadcasts read at an index -/

/-- A length-`N` array laid along axis 0 of an `N × 1` array reads, at an index, its entry at the index's first
    coordinate. -/
theorem bcCol_apply {α : Type} {N : ℕ} (hN : N ≠ 1)
    (hb : (⟨1, ![N]⟩ : Shape).BroadcastsInDim ⟨2, ![N, 1]⟩ ![0]) (x : (⟨1, ![N]⟩ : Shape).Idx → α)
    (j : (⟨2, ![N, 1]⟩ : Shape).Idx) :
    broadcastInDim ⟨2, ![N, 1]⟩ ![0] hb x j = x (ix1 ⟨(j 0).val, idx2_lt0 j⟩) := by
  unfold broadcastInDim
  congr 1
  funext a
  obtain rfl : a = 0 := Subsingleton.elim _ _
  split
  · rename_i h1; exact absurd h1 hN
  · rfl

/-- An `N × 1` array broadcast along its second axis to `N × K` reads, at `(p, q)`, its entry at `(p, 0)`. -/
theorem bcRow_apply {α : Type} {N K : ℕ} (hN : N ≠ 1)
    (hb : (⟨2, ![N, 1]⟩ : Shape).BroadcastsInDim ⟨2, ![N, K]⟩ ![0, 1]) (y : (⟨2, ![N, 1]⟩ : Shape).Idx → α)
    (p : Fin N) (q : Fin K) :
    broadcastInDim ⟨2, ![N, K]⟩ ![0, 1] hb y (ix2 p q) = y (ix2 p ⟨0, Nat.one_pos⟩) := by
  unfold broadcastInDim
  congr 1
  funext a
  match a with
  | ⟨0, _⟩ =>
    split
    · rename_i h1; exact absurd h1 hN
    · rfl
  | ⟨1, _⟩ =>
    split
    · rfl
    · rename_i h1; exact absurd rfl h1

/-- The two together: a per-node array broadcast over the features reads, at `(p, q)`, its entry at node `p`. -/
theorem bcNode_apply {α : Type} {N K : ℕ} (hN : N ≠ 1)
    (hb1 : (⟨1, ![N]⟩ : Shape).BroadcastsInDim ⟨2, ![N, 1]⟩ ![0])
    (hb2 : (⟨2, ![N, 1]⟩ : Shape).BroadcastsInDim ⟨2, ![N, K]⟩ ![0, 1]) (x : (⟨1, ![N]⟩ : Shape).Idx → α)
    (p : Fin N) (q : Fin K) :
    broadcastInDim ⟨2, ![N, K]⟩ ![0, 1] hb2 (broadcastInDim ⟨2, ![N, 1]⟩ ![0] hb1 x) (ix2 p q) = x (ix1 p) := by
  rw [bcRow_apply hN, bcCol_apply hN]
  rfl

/-! ## The normalising factor is a non-negative real -/

section Dinv
variable [Cert.KernelIdeal.Facts₀]
open Cert.KernelIdeal Cert.KernelIdeal.Facts₀

/-- Whatever the degrees, "reciprocal square root where positive, else zero" has every entry a non-negative real. -/
theorem dinv_nonneg_real (deg : FVec Ideal S50000 .f32) (n : S50000.Idx) :
    ∃ r : ℝ, 0 ≤ r ∧
      select (cmpf .ogt deg (broadcastInDim S50000 ![] bcast_S_S50000 (constant (F := Ideal) S_ .f32 0x00000000#32)))
        (Host.rsqrt deg) (broadcastInDim S50000 ![] bcast_S_S50000 (constant (F := Ideal) S_ .f32 0x00000000#32)) n
        = ((r : ℝ) : EReal) := by
  have h := sel_rsqrt_nonneg_real (deg n)
  rw [← Ideal.ofBits_zero_f32] at h
  exact h

end Dinv

/-! ## The kernel's gather and scatter read at an index -/

section Kernel
variable [Cert.KernelIdeal.Facts₀]
open Cert.KernelIdeal Cert.KernelIdeal.Facts₀

/-- The row gather's operand index: result row `e` reads the operand's row at the start index `C e`, read
    signed and clamped into `[0, 49999]`; the feature coordinate is kept. -/
theorem gatherK_operandIdx (C : IVec S850000 32) (e : Fin 850000) (h : Fin 128) :
    gather_S50000x128_S850000x1_S850000x128_1_0_n_n_0_1_1128.operandIdx (ix2 e h)
        (broadcastInDim S850000x1 ![0] bcast_S850000_S850000x1_0 C)
      = ix2 ⟨min (C (ix1 e)).toInt.toNat 49999, by omega⟩ h := by
  funext a
  refine Fin.ext ?_
  show gather_S50000x128_S850000x1_S850000x128_1_0_n_n_0_1_1128.start _ _ a
      + gather_S50000x128_S850000x1_S850000x128_1_0_n_n_0_1_1128.batchCoord _ a
      + gather_S50000x128_S850000x1_S850000x128_1_0_n_n_0_1_1128.offCoord _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    split
    · rw [bcCol_apply (N := 850000) (by decide)]; rfl
    · rename_i ha; exact absurd (List.mem_singleton.mpr rfl) ha
  | ⟨1, _⟩ =>
    unfold GatherDims.start
    split
    · rename_i ha; exact absurd (congrArg Fin.val (List.mem_singleton.mp ha)) Nat.one_ne_zero
    · unfold GatherDims.offCoord
      split
      · exact (Nat.zero_add _).trans rfl
      · rename_i hk
        exact absurd ((GatherDims.mem_sKept _ _).mpr
          ⟨fun hm => absurd (congrArg Fin.val (List.mem_singleton.mp hm)) Nat.one_ne_zero, List.not_mem_nil⟩) hk

/-- The row gather read at an index. -/
theorem gatherK_apply {α : Type} (X : S50000x128.Idx → α) (C : IVec S850000 32) (e : Fin 850000) (h : Fin 128) :
    Host.gather gather_S50000x128_S850000x1_S850000x128_1_0_n_n_0_1_1128 X
        (broadcastInDim S850000x1 ![0] bcast_S850000_S850000x1_0 C) (ix2 e h)
      = X (ix2 ⟨min (C (ix1 e)).toInt.toNat 49999, by omega⟩ h) :=
  congrArg X (gatherK_operandIdx C e h)

end Kernel

section KernelScatter
variable [Cert.KernelIdeal.Facts₀]
open Cert.KernelIdeal Cert.KernelIdeal.Facts₀

/-- The row scatter's window start on the node axis is the scatter index `R e`, read signed. -/
theorem scatterK_start0 (R : IVec S850000 32) (e : Fin 850000) (h : Fin 128) :
    scatter_S50000x128_S850000x1_S850000x128_1_0_0_1.start (ix2 e h)
        (broadcastInDim S850000x1 ![0] bcast_S850000_S850000x1_0 R) 0 = (R (ix1 e)).toInt := by
  unfold ScatterDims.start
  split
  · rw [bcCol_apply (N := 850000) (by decide)]; rfl
  · rename_i ha; exact absurd (List.mem_singleton.mpr rfl) ha

/-- … and zero on the feature axis, which the scatter index does not address. -/
theorem scatterK_start1 (R : IVec S850000 32) (e : Fin 850000) (h : Fin 128) :
    scatter_S50000x128_S850000x1_S850000x128_1_0_0_1.start (ix2 e h)
        (broadcastInDim S850000x1 ![0] bcast_S850000_S850000x1_0 R) 1 = 0 := by
  unfold ScatterDims.start
  split
  · rename_i ha; exact absurd (congrArg Fin.val (List.mem_singleton.mp ha)) Nat.one_ne_zero
  · rfl

/-- The window coordinate is zero on the node axis (an inserted axis) … -/
theorem scatterK_window0 (e : Fin 850000) (h : Fin 128) :
    scatter_S50000x128_S850000x1_S850000x128_1_0_0_1.window (ix2 e h) 0 = 0 := by
  unfold ScatterDims.window
  split
  · rename_i ha
    have h2 := (List.mem_filter.mp ha).2
    simp at h2
    exact absurd (List.mem_singleton.mpr rfl) h2
  · rfl

/-- … and the update's feature coordinate on the feature axis. -/
theorem scatterK_window1 (e : Fin 850000) (h : Fin 128) :
    scatter_S50000x128_S850000x1_S850000x128_1_0_0_1.window (ix2 e h) 1 = h.val := by
  unfold ScatterDims.window
  split
  · rfl
  · rename_i ha
    refine absurd ?_ ha
    refine List.mem_filter.mpr ⟨List.mem_finRange _, ?_⟩
    simp only [decide_not, Bool.not_eq_eq_eq_not, Bool.not_true, decide_eq_false_iff_not]
    exact fun hm => absurd (congrArg Fin.val (List.mem_singleton.mp hm)) Nat.one_ne_zero

/-- Where update `(e, h)` lands at `i`, the scatter index `R e` read signed is `i`'s node coordinate and `h` its
    feature coordinate. -/
theorem scatterK_resultIdx (R : IVec S850000 32) (e : Fin 850000) (h : Fin 128) (i : S50000x128.Idx)
    (hi : scatter_S50000x128_S850000x1_S850000x128_1_0_0_1.resultIdx? (ix2 e h)
        (broadcastInDim S850000x1 ![0] bcast_S850000_S850000x1_0 R) = some i) :
    (R (ix1 e)).toInt = ((i 0).val : ℤ) ∧ (i 1).val = h.val := by
  unfold ScatterDims.resultIdx? at hi
  split at hi
  · rename_i hc
    have hi' := Option.some.inj hi
    subst hi'
    have h0 := hc 0
    rw [scatterK_start0, scatterK_window0] at h0
    constructor
    · show _ = (((scatter_S50000x128_S850000x1_S850000x128_1_0_0_1.start (ix2 e h)
        (broadcastInDim S850000x1 ![0] bcast_S850000_S850000x1_0 R) 0
        + (scatter_S50000x128_S850000x1_S850000x128_1_0_0_1.window (ix2 e h) 0 : ℕ)).toNat : ℕ) : ℤ)
      rw [scatterK_start0, scatterK_window0]
      omega
    · show (scatter_S50000x128_S850000x1_S850000x128_1_0_0_1.start (ix2 e h)
        (broadcastInDim S850000x1 ![0] bcast_S850000_S850000x1_0 R) 1
        + (scatter_S50000x128_S850000x1_S850000x128_1_0_0_1.window (ix2 e h) 1 : ℕ)).toNat = _
      rw [scatterK_start1, scatterK_window1]
      omega
  · exact absurd hi (by simp)

end KernelScatter

/-! ## The reference's gathers read at an index -/

section Reference
variable [Cert.ReferenceIdeal.Facts₀]
open Cert.ReferenceIdeal Cert.ReferenceIdeal.Facts₀

/-- The per-node gather read at an index: entry `e` of the result is the operand's entry at the start index `C e`,
    read signed and clamped into `[0, 49999]`. -/
theorem gatherR1_apply {α : Type} (d : S50000.Idx → α) (C : IVec S850000 32) (e : Fin 850000) :
    Host.gather gather_S50000_S850000x1_S850000_n_0_n_n_0_1_1 d
        (broadcastInDim S850000x1 ![0] bcast_S850000_S850000x1_0 C) (ix1 e)
      = d (ix1 ⟨min (C (ix1 e)).toInt.toNat 49999, by omega⟩) := by
  unfold Host.gather
  congr 1
  funext a
  obtain rfl : a = 0 := Subsingleton.elim _ _
  refine Fin.ext ?_
  show gather_S50000_S850000x1_S850000_n_0_n_n_0_1_1.start _ _ 0
      + gather_S50000_S850000x1_S850000_n_0_n_n_0_1_1.batchCoord _ 0
      + gather_S50000_S850000x1_S850000_n_0_n_n_0_1_1.offCoord _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  split
  · rw [bcCol_apply (N := 850000) (by decide)]; rfl
  · rename_i ha; exact absurd (List.mem_singleton.mpr rfl) ha

/-- The same, where the clamped start index is known to be node `k`. -/
theorem gatherR1_apply_of {α : Type} (d : S50000.Idx → α) (C : IVec S850000 32) (e : Fin 850000) (k : Fin 50000)
    (hk : min (C (ix1 e)).toInt.toNat 49999 = k.val) :
    Host.gather gather_S50000_S850000x1_S850000_n_0_n_n_0_1_1 d
        (broadcastInDim S850000x1 ![0] bcast_S850000_S850000x1_0 C) (ix1 e) = d (ix1 k) := by
  rw [gatherR1_apply]
  exact congrArg (fun k => d (ix1 k)) (Fin.ext hk)

end Reference

/-! ## The aggregation law -/

section Law
variable [Cert.KernelIdeal.Facts₀] [Cert.ReferenceIdeal.Facts₀]

/-- The accumulating scatter at the ideal instance, read at an index: the operand's element plus the sum of the
    updates that land there. -/
theorem scatterAdd_apply {s si su : Shape} {w : Nat} (d : ScatterDims s si su) (x : FVec Ideal s .f32)
    (idx : IVec si w) (upd : FVec Ideal su .f32) (i : s.Idx) :
    Host.scatterAdd d x idx upd i
      = x i + ∑ j ∈ Finset.univ.filter (fun j => d.resultIdx? j idx = some i), upd j := rfl

/-- The reference's row gather read at an index (its dimension numbers are the kernel's). -/
theorem gatherR_apply {α : Type} (Y : Cert.ReferenceIdeal.S50000x128.Idx → α) (C : IVec Cert.ReferenceIdeal.S850000 32)
    (e : Fin 850000) (h : Fin 128) :
    Host.gather Cert.ReferenceIdeal.gather_S50000x128_S850000x1_S850000x128_1_0_n_n_0_1_1128 Y
        (broadcastInDim Cert.ReferenceIdeal.S850000x1 ![0] Cert.ReferenceIdeal.Facts₀.bcast_S850000_S850000x1_0 C) (ix2 e h)
      = Y (ix2 ⟨min (C (ix1 e)).toInt.toNat 49999, by omega⟩ h) :=
  gatherK_apply Y C e h

/-- THE LAW, over arbitrary normalised index arrays: scaling the gathered rows by `dinv` at the source before the
    scatter and by `dinv` at the destination after it is scaling each edge's row by the product of the two — for
    `dinv` non-negative real, which is what lets the destination's factor through the sum. `ROWn` is any array
    whose clamped reading is the destination node wherever `ROW`'s signed reading is one. -/
theorem aggregate_core (ROW ROWn COLn : IVec Cert.KernelIdeal.S850000 32) (dinv : FVec Ideal Cert.KernelIdeal.S50000 .f32)
    (hd : ∀ n, ∃ r : ℝ, 0 ≤ r ∧ dinv n = ((r : ℝ) : EReal))
    (X : FVec Ideal Cert.KernelIdeal.S50000x128 .bf16) (Y : FVec Ideal Cert.ReferenceIdeal.S50000x128 .f32)
    (hXY : ∀ i, Y i = X i)
    (hR : ∀ (e : Fin 850000) (n : Fin 50000), (ROW (ix1 e)).toInt = (n.val : ℤ) →
      min (ROWn (ix1 e)).toInt.toNat 49999 = n.val) :
    (open Cert.KernelIdeal Cert.KernelIdeal.Facts₀ in
      mulf (Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 ROW)
        (extf .f32 (Host.gather gather_S50000x128_S850000x1_S850000x128_1_0_n_n_0_1_1128
          (truncf .bf16 (mulf (extf .f32 X bitsLt_bf16_f32)
            (broadcastInDim S50000x128 ![0, 1] bcast_S50000x1_S50000x128_0_1
              (broadcastInDim S50000x1 ![0] bcast_S50000_S50000x1_0 dinv))) bitsLt_bf16_f32)
          (broadcastInDim S850000x1 ![0] bcast_S850000_S850000x1_0 COLn)) bitsLt_bf16_f32))
      (broadcastInDim S50000x128 ![0, 1] bcast_S50000x1_S50000x128_0_1
        (broadcastInDim S50000x1 ![0] bcast_S50000_S50000x1_0 dinv)))
    = (open Cert.ReferenceIdeal Cert.ReferenceIdeal.Facts₀ in
      Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 ROW)
        (mulf (broadcastInDim S850000x128 ![0, 1] bcast_S850000x1_S850000x128_0_1
            (broadcastInDim S850000x1 ![0] bcast_S850000_S850000x1_0
              (mulf
                (Host.gather gather_S50000_S850000x1_S850000_n_0_n_n_0_1_1 dinv
                  (broadcastInDim S850000x1 ![0] bcast_S850000_S850000x1_0 ROWn))
                (Host.gather gather_S50000_S850000x1_S850000_n_0_n_n_0_1_1 dinv
                  (broadcastInDim S850000x1 ![0] bcast_S850000_S850000x1_0 COLn)))))
          (Host.gather gather_S50000x128_S850000x1_S850000x128_1_0_n_n_0_1_1128 Y
            (broadcastInDim S850000x1 ![0] bcast_S850000_S850000x1_0 COLn)))) := by
  funext i
  obtain ⟨n, h, rfl⟩ : ∃ n h, i = ix2 n h := ⟨_, _, eq_ix2 i⟩
  obtain ⟨r, hr0, hr⟩ := hd (ix1 n)
  have hD0 : (0 : EReal) ≤ dinv (ix1 n) := by rw [hr]; exact_mod_cast hr0
  have hDt : dinv (ix1 n) ≠ ⊤ := by rw [hr]; exact EReal.coe_ne_top r
  rw [mulf_apply, scatterAdd_apply, scatterAdd_apply, bcNode_apply (N := 50000) (K := 128) (by decide)]
  have hZ : ∀ (t : Shape) (hb : Cert.KernelIdeal.S_.BroadcastsInDim t ![]) (i : t.Idx),
      broadcastInDim t ![] hb (constant (F := Ideal) Cert.KernelIdeal.S_ .f32 0x00000000#32) i = 0 :=
    fun _ _ _ => Ideal.ofBits_zero_f32
  rw [hZ, zero_add, zero_add, sum_mul_nonneg_real _ _ _ hD0 hDt]
  refine Finset.sum_congr rfl ?_
  intro j hj
  obtain ⟨e, h', rfl⟩ : ∃ e h', j = ix2 e h' := ⟨_, _, eq_ix2 j⟩
  obtain ⟨hrow, -⟩ := scatterK_resultIdx ROW e h' _ (Finset.mem_filter.mp hj).2
  rw [extf_apply, gatherK_apply, truncf_apply, mulf_apply, extf_apply, bcNode_apply (N := 50000) (K := 128) (by decide)]
  rw [mulf_apply, bcNode_apply (N := 850000) (K := 128) (by decide), mulf_apply,
    gatherR1_apply_of dinv ROWn e n (hR e n hrow), gatherR1_apply, gatherR_apply, hXY]
  exact edge_term _ _ _
end Law

section LawSpelt
variable [Cert.KernelIdeal.Facts₀] [Cert.ReferenceIdeal.Facts₀]

/-- THE LAW as the two programs spell it: the source indices `COL` and (in the second program) the destination
    indices `ROW` are first wrapped ("add 50000 where negative"); `ROW` and `COL` are arbitrary words. Where an
    update lands at node `n`, `ROW`'s signed reading is `n`, which the wrap and the clamp leave (`norm_idx`). -/
theorem aggregate_eq (ROW COL : IVec Cert.KernelIdeal.S850000 32) (dinv : FVec Ideal Cert.KernelIdeal.S50000 .f32)
    (hd : ∀ n, ∃ r : ℝ, 0 ≤ r ∧ dinv n = ((r : ℝ) : EReal))
    (X : FVec Ideal Cert.KernelIdeal.S50000x128 .bf16) (Y : FVec Ideal Cert.ReferenceIdeal.S50000x128 .f32)
    (hXY : ∀ i, Y i = X i) :
    (open Cert.KernelIdeal Cert.KernelIdeal.Facts₀ in
      mulf (Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 ROW)
        (extf .f32 (Host.gather gather_S50000x128_S850000x1_S850000x128_1_0_n_n_0_1_1128
          (truncf .bf16 (mulf (extf .f32 X bitsLt_bf16_f32)
            (broadcastInDim S50000x128 ![0, 1] bcast_S50000x1_S50000x128_0_1
              (broadcastInDim S50000x1 ![0] bcast_S50000_S50000x1_0 dinv))) bitsLt_bf16_f32)
          (broadcastInDim S850000x1 ![0] bcast_S850000_S850000x1_0
            (select (cmpi .slt COL (broadcastInDim S850000 ![] bcast_S_S850000 (constantI S_ 32 0#32)))
              (addi COL (broadcastInDim S850000 ![] bcast_S_S850000 (constantI S_ 32 50000#32))) COL))) bitsLt_bf16_f32))
      (broadcastInDim S50000x128 ![0, 1] bcast_S50000x1_S50000x128_0_1
        (broadcastInDim S50000x1 ![0] bcast_S50000_S50000x1_0 dinv)))
    = (open Cert.ReferenceIdeal Cert.ReferenceIdeal.Facts₀ in
      Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 ROW)
        (mulf (broadcastInDim S850000x128 ![0, 1] bcast_S850000x1_S850000x128_0_1
            (broadcastInDim S850000x1 ![0] bcast_S850000_S850000x1_0
              (mulf
                (Host.gather gather_S50000_S850000x1_S850000_n_0_n_n_0_1_1 dinv
                  (broadcastInDim S850000x1 ![0] bcast_S850000_S850000x1_0
                    (select (cmpi .slt ROW (broadcastInDim S850000 ![] bcast_S_S850000 (constantI S_ 32 0#32)))
                      (addi ROW (broadcastInDim S850000 ![] bcast_S_S850000 (constantI S_ 32 50000#32))) ROW)))
                (Host.gather gather_S50000_S850000x1_S850000_n_0_n_n_0_1_1 dinv
                  (broadcastInDim S850000x1 ![0] bcast_S850000_S850000x1_0
                    (select (cmpi .slt COL (broadcastInDim S850000 ![] bcast_S_S850000 (constantI S_ 32 0#32)))
                      (addi COL (broadcastInDim S850000 ![] bcast_S_S850000 (constantI S_ 32 50000#32))) COL))))))
          (Host.gather gather_S50000x128_S850000x1_S850000x128_1_0_n_n_0_1_1128 Y
            (broadcastInDim S850000x1 ![0] bcast_S850000_S850000x1_0
              (select (cmpi .slt COL (broadcastInDim S850000 ![] bcast_S_S850000 (constantI S_ 32 0#32)))
                (addi COL (broadcastInDim S850000 ![] bcast_S_S850000 (constantI S_ 32 50000#32))) COL))))) :=
  aggregate_core ROW
    (open Cert.KernelIdeal Cert.KernelIdeal.Facts₀ in
      select (cmpi .slt ROW (broadcastInDim S850000 ![] bcast_S_S850000 (constantI S_ 32 0#32)))
        (addi ROW (broadcastInDim S850000 ![] bcast_S_S850000 (constantI S_ 32 50000#32))) ROW)
    (open Cert.KernelIdeal Cert.KernelIdeal.Facts₀ in
      select (cmpi .slt COL (broadcastInDim S850000 ![] bcast_S_S850000 (constantI S_ 32 0#32)))
        (addi COL (broadcastInDim S850000 ![] bcast_S_S850000 (constantI S_ 32 50000#32))) COL)
    dinv hd X Y hXY (fun e n hrow => norm_idx (ROW (ix1 e)) n.val n.isLt hrow)

end LawSpelt

end Cert.Gcn.Aggregate

end
-- ==== Proof.Bridge.lean ====
/-
  The two closed forms are one function of the arguments, on the extended reals.

  Both programs build the same index arrays and the same per-node factors `dinv` from the edge list (the same
  operations, so the same terms). They differ in three places, and meet in each:
  * the matrix products: the kernel multiplies ten blocks of 5000 rows, the reference the whole table; entry `(p, q)` is
    the sum over `k` of feature `(p, k)` times weight `(k, q)` either way, and changes of float format are the identity;
  * the aggregation: the kernel scales by `dinv` at the source before the gather and at the destination after the sum,
    the reference scales every edge's row by the product of the two factors; these agree because `dinv` is a
    non-negative real, which distributes over an extended-real sum (the aggregation law);
  * the first bias and the cut-off at zero: inside the kernel's second product, before the reference's.
-/
import proofs.«103276_j42649025249306_2_alg».proof.Proof.KernelValue
import proofs.«103276_j42649025249306_2_alg».proof.Proof.RefValue
import proofs.«103276_j42649025249306_2_alg».proof.Proof.Aggregate
import proofs.«103276_j42649025249306_2_alg».proof.Proof.MatmulRead

noncomputable section

namespace Cert.Gcn.Bridge

open Idealize.ShloMosaic Idealize.ShloMosaic.ValueIdx
open Cert.Gcn

/-! ## The shared pieces are the same terms under the two programs' names -/

section Same
variable {F : FTy → Type} [FloatOps F]

theorem rowOf_eq (ei : IVec Cert.KernelIdeal.S2x800000 32) : RefValue.rowOf ei = KernelValue.rowOf ei := rfl
theorem colOf_eq (ei : IVec Cert.KernelIdeal.S2x800000 32) : RefValue.colOf ei = KernelValue.colOf ei := rfl
theorem degOf_eq (row : IVec Cert.KernelIdeal.S850000 32) : RefValue.degOf (F := F) row = KernelValue.degOf row := rfl
theorem dinvOf_eq (deg : FVec F Cert.KernelIdeal.S50000 .f32) : RefValue.dinvOf deg = KernelValue.dinvOf deg := rfl
theorem biasB_eq (b : FVec F Cert.KernelIdeal.S128 .f32) : RefValue.biasB b = KernelValue.biasB b := rfl

end Same

/-- Every per-node factor is a non-negative real, whatever the edge list. -/
theorem dinv_real (row : IVec Cert.KernelIdeal.S850000 32) (n : Cert.KernelIdeal.S50000.Idx) :
    ∃ r : ℝ, 0 ≤ r ∧ KernelValue.dinvOf (F := Ideal) (KernelValue.degOf (F := Ideal) row) n = ((r : ℝ) : EReal) :=
  Aggregate.dinv_nonneg_real (KernelValue.degOf (F := Ideal) row) n

/-- The aggregation law between the two closed forms: for tables that agree entry by entry, the kernel's
    scale–gather–sum–scale is the reference's gather–scale-per-edge–sum. -/
theorem agg_eq (ei : IVec Cert.KernelIdeal.S2x800000 32) (X : FVec Ideal Cert.KernelIdeal.S50000x128 .bf16)
    (Y : FVec Ideal Cert.ReferenceIdeal.S50000x128 .f32) (hXY : ∀ i, Y i = X i) :
    KernelValue.aggK (KernelValue.rowOf ei) (KernelValue.colOf ei)
        (KernelValue.dinvOf (F := Ideal) (KernelValue.degOf (F := Ideal) (KernelValue.rowOf ei))) X
      = RefValue.aggR (RefValue.rowOf ei) (RefValue.colOf ei)
        (RefValue.dinvOf (F := Ideal) (RefValue.degOf (F := Ideal) (RefValue.rowOf ei))) Y := by
  rw [rowOf_eq, colOf_eq, degOf_eq, dinvOf_eq]
  exact Aggregate.aggregate_eq (KernelValue.rowOf ei) (KernelValue.colOf ei) _ (dinv_real _) X Y hXY

/-- The reference's whole product is the kernel's blockwise one, entry by entry. -/
theorem dot_eq_mm (x : FVec Ideal Cert.KernelIdeal.S50000x128 .f32) (w : FVec Ideal Cert.KernelIdeal.S128x128 .f32)
    (i : Cert.KernelIdeal.S50000x128.Idx) : RefValue.dotR (F := Ideal) x w i = KernelValue.mm x w i := by
  obtain ⟨p, q, rfl⟩ : ∃ (p : Fin 50000) (q : Fin 128), i = ix2 p q := ⟨_, _, eq_ix2 i⟩
  exact Matmul.dot_apply x w p q

/-- The reference's second product — of the first layer's output plus bias, cut off at zero — is the kernel's second
    region's, entry by entry, when the two first-layer outputs agree. -/
theorem dot_relu_eq_mmBR (AK : FVec Ideal Cert.KernelIdeal.S50000x128 .f32) (AR : FVec Ideal Cert.ReferenceIdeal.S50000x128 .f32)
    (hA : ∀ i, AR i = AK i) (b1 : FVec Ideal Cert.KernelIdeal.S128 .f32)
    (h : Cert.KernelIdeal.S128.ShapeCasts Cert.KernelIdeal.S1x128) (w2 : FVec Ideal Cert.KernelIdeal.S128x128 .f32)
    (i : Cert.KernelIdeal.S50000x128.Idx) :
    RefValue.dotR (F := Ideal) (RefValue.reluR (addf AR (RefValue.biasB b1))) w2 i
      = KernelValue.mmBR AK (shapeCast Cert.KernelIdeal.S1x128 b1 h) w2 i := by
  obtain ⟨p, q, rfl⟩ : ∃ (p : Fin 50000) (q : Fin 128), i = ix2 p q := ⟨_, _, eq_ix2 i⟩
  refine (Matmul.dot_apply _ _ p q).trans ?_
  show _ = ∑ k : Fin 128, max (AK (ix2 p k) + shapeCast Cert.KernelIdeal.S1x128 b1 h (ix2 (0 : Fin 1) k))
      (Ideal.ofBits .f32 0x00000000#32) * w2 (ix2 k q)
  refine Finset.sum_congr rfl fun k _ => ?_
  refine congrArg (· * w2 (ix2 k q)) ?_
  refine (Matmul.refAct_apply AR b1 p k).trans ?_
  rw [hA, Matmul.biasRow_apply]

/-- THE BRIDGE: the kernel's result and the reference's are the same function of the six arguments. -/
theorem out_eq (x : FVec Ideal Cert.KernelIdeal.S50000x128 .f32) (ei : IVec Cert.KernelIdeal.S2x800000 32)
    (w1 : FVec Ideal Cert.KernelIdeal.S128x128 .f32) (b1 : FVec Ideal Cert.KernelIdeal.S128 .f32)
    (w2 : FVec Ideal Cert.KernelIdeal.S128x128 .f32) (b2 : FVec Ideal Cert.KernelIdeal.S128 .f32) :
    KernelValue.outK x ei w1 b1 w2 b2 = RefValue.outR (F := Ideal) x ei w1 b1 w2 b2 := by
  unfold KernelValue.outK RefValue.outR
  have h1 := agg_eq ei (KernelValue.mm x w1) (RefValue.dotR (F := Ideal) x w1) (dot_eq_mm x w1)
  have h2 := agg_eq ei
    (KernelValue.mmBR (KernelValue.aggK (KernelValue.rowOf ei) (KernelValue.colOf ei) (KernelValue.dinvOf (F := Ideal) (KernelValue.degOf (F := Ideal) (KernelValue.rowOf ei))) (KernelValue.mm x w1))
      (shapeCast Cert.KernelIdeal.S1x128 b1 Cert.KernelIdeal.Gen.shapeCasts_S128_S1x128) w2)
    (RefValue.dotR (F := Ideal) (RefValue.reluR (addf (RefValue.aggR (RefValue.rowOf ei) (RefValue.colOf ei) (RefValue.dinvOf (F := Ideal) (RefValue.degOf (F := Ideal) (RefValue.rowOf ei)))
      (RefValue.dotR (F := Ideal) x w1)) (RefValue.biasB b1))) w2)
    (dot_relu_eq_mmBR _ _ (fun i => (congrFun h1 i).symm) b1 Cert.KernelIdeal.Gen.shapeCasts_S128_S1x128 w2)
  rw [h2, biasB_eq b2]

end Cert.Gcn.Bridge

end
-- ==== Proof.lean ====
/-
  A two-layer graph convolution with symmetric normalisation: per layer a dense product with a weight matrix, a gather
  of the rows at every edge's source, a sum at every edge's destination, and a bias; a cut-off at zero between the
  layers. The kernel runs the two dense products as pipelined regions over ten blocks of 5000 nodes (the second with the
  first layer's bias and cut-off folded in front of it) and factors the normalisation `dinv[dst] · dinv[src]` out of the
  per-edge path: rows are scaled by `dinv` before the gather and the sums by `dinv` after. The reference scales every
  edge's row by the product of the two factors.

  On the extended reals the two are one function of the arguments. The format changes are the identity; a blockwise
  product is the whole product entry by entry (Proof/MatmulRead.lean, Proof/KernelValue.lean); and the destination's factor
  passes through the sum over the in-edges because `dinv` — the inverse square root of a positive degree, else zero — is
  a non-negative real for every edge list whatever (Proof/Aggregate.lean). So the claim needs nothing of the inputs'
  finiteness, and the out-of-range or negative indices an arbitrary edge list may hold are treated alike by both
  programs (dropped by the sums, clamped by the gathers).

  The frames: the two kernels' are the frame certificates of their two-region runs; the reference's is its run with the
  result dropped. Nothing was rewritten between the kernel and its idealization, so `preserves` holds trivially.
  `algebraic`: the kernel's run ends with the result at `outK` of the arguments (Proof/KernelRun.lean, Proof/KernelValue.lean),
  the reference's at `outR` (Proof/RefRun.lean, Proof/RefValue.lean), and `outK = outR` (Proof/Bridge.lean).
-/
import proofs.«103276_j42649025249306_2_alg».proof.Defs
import proofs.«103276_j42649025249306_2_alg».proof.Proof.Gen.Kernel
import proofs.«103276_j42649025249306_2_alg».proof.Proof.Gen.Kernel.Frame
import proofs.«103276_j42649025249306_2_alg».proof.Proof.Gen.KernelIdeal
import proofs.«103276_j42649025249306_2_alg».proof.Proof.Gen.KernelIdeal.Frame
import proofs.«103276_j42649025249306_2_alg».proof.Proof.Gen.ReferenceIdeal
import proofs.«103276_j42649025249306_2_alg».proof.Proof.Gen.Pre_finite_inputs
import proofs.«103276_j42649025249306_2_alg».proof.Proof.KernelRun
import proofs.«103276_j42649025249306_2_alg».proof.Proof.KernelValue
import proofs.«103276_j42649025249306_2_alg».proof.Proof.RefRun
import proofs.«103276_j42649025249306_2_alg».proof.Proof.RefValue
import proofs.«103276_j42649025249306_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the arguments both programs end with the same result: the kernel's closed form of the
    arguments, which is the reference's. -/
theorem algebraic : Cert.algebraic_KernelIdeal_ReferenceIdeal := by
  intro m ρ m' ρ' _ hagree
  refine ⟨fun c => Cert.Gcn.KernelValue.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨((h c).1).trans (Cert.Gcn.KernelValue.W6_main_v58 m ρ c), (h c).2⟩)
      (Cert.Gcn.KernelRun.run_value m ρ)
  · refine (θ_run Cert.ReferenceIdeal.defs _ _).mono (fun _ h c => ⟨?_, (h c).2⟩)
      (Cert.ReferenceIdeal.RunP.run (F := Ideal) m' ρ')
    rw [(h c).1, Cert.Gcn.RefValue.ref_result, (hagree c).1, (hagree c).2.1, (hagree c).2.2.1, (hagree c).2.2.2.1,
      (hagree c).2.2.2.2.1, (hagree c).2.2.2.2.2]
    exact (Cert.Gcn.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
